-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : FVec F S4096x4096 .f32) (main_arg1 : FVec F S4096x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x4096 : Shape := ⟨2, ![4096, 4096]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S2048x1024, .f32⟩
  | .local _ .vmem, ⟨5, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S2048x1024_S2048x1024 : S2048x1024.ShapeCasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S4096x4096.size a
  hwx0_0 : ∀ i : grid0.Coords, EltTy.bits .f32 = 32 ∨ (Rect.block (s := S4096x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S4096x4096.size a
  hwx0_2 : ∀ i : grid0.Coords, EltTy.bits .f32 = 32 ∨ (Rect.block (s := S4096x4096) S2048x1024.size (cc0_transform_2 i) (hinb0_2 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x4096 : Shape := ⟨2, ![4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.TilePayload.lean ====
/-
  One grid step's arithmetic, read at an entry.

  A grid step holds a 2048 x 512 tile `x0` of the first matrix, a 1024 x 512 tile `x1` of the second and the
  2048 x 1024 output tile `acc` left by the step before.  It narrows both input tiles (the identity on the extended
  reals), multiplies them contracting the SECOND axis of both into a zero accumulator, and adds the product to `acc`:
  at entry (p, q) the new tile holds `acc (p, q) + Σ_{d < 512} x0 (p, d) * x1 (q, d)`.  The first step of a run of eight
  starts from the zero tile instead of `acc`.
-/
import proofs.«140523_j58720792871620_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The tile product's dimensions: rows of the first tile against rows of the second, both contracting their second axis. -/
abbrev D : DotDims S2048x512 S1024x512 S2048x1024 := dot_S2048x512_S1024x512_S2048x1024_1_1_0_0_n_n

/-- The first operand is read in the output's row … -/
theorem lhs_row (j : S2048x1024.Idx) (k : D.contr.Idx) : (D.lhsIdx j k 0).val = (j 0).val := by
  unfold DotDims.lhsIdx
  rw [dif_neg (show ¬(0 : Fin S2048x512.rank) ∈ D.lhsBatch by decide),
    dif_pos (show (0 : Fin S2048x512.rank) ∈ D.lhsNonContracting by decide)]
  rfl
/-- … at the contracted position; -/
theorem lhs_col (j : S2048x1024.Idx) (k : D.contr.Idx) : (D.lhsIdx j k 1).val = (k ⟨0, by decide⟩).val :=
  D.lhsIdx_val_of_single rfl j k
/-- the second operand is read in the row the output's COLUMN names … -/
theorem rhs_row (j : S2048x1024.Idx) (k : D.contr.Idx) : (D.rhsIdx j k 0).val = (j 1).val := by
  unfold DotDims.rhsIdx
  rw [dif_neg (show ¬(0 : Fin S1024x512.rank) ∈ D.rhsBatch by decide),
    dif_pos (show (0 : Fin S1024x512.rank) ∈ D.rhsNonContracting by decide)]
  rfl
/-- … at the contracted position. -/
theorem rhs_col (j : S2048x1024.Idx) (k : D.contr.Idx) : (D.rhsIdx j k 1).val = (k ⟨0, by decide⟩).val :=
  D.rhsIdx_val_of_single rfl j k

/-- The tile product into a zero accumulator at entry (p, q): the sum over the 512 contracted positions of the
    products of row `p` of the first tile with row `q` of the second. -/
theorem tileProduct_apply {φ₁ φ₂ : FTy} (x0 : FVec Ideal S2048x512 φ₁) (x1 : FVec Ideal S1024x512 φ₂)
    (p : Fin 2048) (q : Fin 1024) :
    FloatOps.matmul D none x0 x1 (constant S2048x1024 .f32 0x00000000#32) (ix2 p q)
      = ∑ d : Fin 512, x0 (ix2 p d) * x1 (ix2 q d) := by
  rw [Ideal.matmul_constant_zero_apply, ← Equiv.sum_comp (contrEquiv1 D 512 rfl rfl).symm]
  refine Finset.sum_congr rfl fun d _ => ?_
  have hd := contrEquiv1_symm_val D 512 rfl rfl d
  have el : D.lhsIdx (ix2 p q) ((contrEquiv1 D 512 rfl rfl).symm d) = ix2 p d := funext fun a => Fin.ext (by
    match a with
    | ⟨0, _⟩ => exact lhs_row _ _
    | ⟨1, _⟩ => exact (lhs_col _ _).trans hd)
  have er : D.rhsIdx (ix2 p q) ((contrEquiv1 D 512 rfl rfl).symm d) = ix2 q d := funext fun a => Fin.ext (by
    match a with
    | ⟨0, _⟩ => exact rhs_row _ _
    | ⟨1, _⟩ => exact (rhs_col _ _).trans hd)
  rw [el, er]

/-- The tile a run of eight steps starts from is zero at every entry. -/
theorem zeroTile_apply (y : S2048x1024.Idx) : k0_pay1 (F := Ideal) y = 0 :=
  Ideal.ofBits_zero_f32

/-- One step at entry (p, q): what the step before left there, plus the tile product. -/
theorem step_apply (x0 : Vec Ideal S2048x512 .f32) (x1 : Vec Ideal S1024x512 .f32) (acc : Vec Ideal S2048x1024 .f32)
    (p : Fin 2048) (q : Fin 1024) :
    k0_pay2 (F := Ideal) x0 x1 acc (ix2 p q) = acc (ix2 p q) + ∑ d : Fin 512, x0 (ix2 p d) * x1 (ix2 q d) := by
  unfold k0_pay2
  show shapeCast S2048x1024 acc shapeCasts_S2048x1024_S2048x1024 (ix2 p q)
      + FloatOps.matmul (F := Ideal) D none (truncf (F := Ideal) .bf16 x0 bitsLt_bf16_f32)
          (truncf (F := Ideal) .bf16 x1 bitsLt_bf16_f32) (constant (F := Ideal) S2048x1024 .f32 0x00000000#32) (ix2 p q) = _
  rw [shapeCast_self, tileProduct_apply]
  rfl

end Cert.KernelIdeal.Tile

end
-- ==== Proof.LibTileSum.lean ====
/-
  Finite sums cut into tiles, running sums over the tiles, sums over a range padded with zeros, and the collapse of
  products with a vanishing factor on the extended reals.

  Over an additive commutative monoid: a sum of `a * b` terms is the sum over `a` tiles of the `b` terms of each
  tile; a running sum `g 0, g 0 + g 1, …` over eight tiles ends at the full sum; a sum whose terms vanish from some
  position on is the sum of the terms before it.  On the extended reals `0 * x = x * 0 = 0` for every `x` (the
  infinities included) and `r - r = 0` for a real `r`, so a product split along `x = x + (x - x)` loses its extra terms.
-/
import Mathlib.Algebra.BigOperators.Fin
import Mathlib.Data.Fintype.BigOperators
import Mathlib.Logic.Equiv.Fin.Basic
import Mathlib.Data.EReal.Inv

namespace Cert.LibTileSum

open scoped BigOperators

section Monoid
variable {M : Type*} [AddCommMonoid M]

/-- Position `q` of tile `j` (tiles of `b` terms, `a` of them) is below `a * b`. -/
theorem tile_lt {a b : ℕ} (j : Fin a) (q : Fin b) : b * j.val + q.val < a * b :=
  calc b * j.val + q.val < b * j.val + b := Nat.add_lt_add_left q.isLt _
    _ = b * (j.val + 1) := (Nat.mul_succ _ _).symm
    _ ≤ b * a := Nat.mul_le_mul_left _ j.isLt
    _ = a * b := Nat.mul_comm _ _

/-- A sum of `a * b` terms is the sum over the `a` tiles of the sums of the `b` terms of each tile. -/
theorem sum_tiles_mul (a b : ℕ) (f : Fin (a * b) → M) :
    ∑ k : Fin (a * b), f k = ∑ j : Fin a, ∑ q : Fin b, f ⟨b * j.val + q.val, tile_lt j q⟩ := by
  rw [← Equiv.sum_comp finProdFinEquiv f, Fintype.sum_prod_type]
  refine Finset.sum_congr rfl fun j _ => Finset.sum_congr rfl fun q _ => ?_
  exact congrArg f (Fin.ext (Nat.add_comm _ _))

/-- 6144 terms as 8 tiles of 768. -/
theorem sum_tiles (f : Fin 6144 → M) :
    ∑ k : Fin 6144, f k = ∑ j : Fin 8, ∑ q : Fin 768, f ⟨768 * j.val + q.val, by omega⟩ :=
  sum_tiles_mul 8 768 f

/-- The running sum over eight tiles: `g 0`, then one more tile's term at each step (nothing past the eighth). -/
def partialSum (g : Fin 8 → M) : ℕ → M
  | 0 => g 0
  | k + 1 => partialSum g k + (if h : k + 1 < 8 then g ⟨k + 1, h⟩ else 0)

@[simp] theorem partialSum_zero (g : Fin 8 → M) : partialSum g 0 = g 0 := rfl
theorem partialSum_succ (g : Fin 8 → M) (k : ℕ) (h : k + 1 < 8) :
    partialSum g (k + 1) = partialSum g k + g ⟨k + 1, h⟩ := by
  rw [partialSum, dif_pos h]

/-- After the eighth tile the running sum is the full sum. -/
theorem partialSum_seven (g : Fin 8 → M) : partialSum g 7 = ∑ j : Fin 8, g j := by
  rw [Fin.sum_univ_eight]
  show partialSum g (6 + 1) = _
  rw [partialSum_succ g 6 (by omega), partialSum_succ g 5 (by omega), partialSum_succ g 4 (by omega),
    partialSum_succ g 3 (by omega), partialSum_succ g 2 (by omega), partialSum_succ g 1 (by omega),
    partialSum_succ g 0 (by omega), partialSum_zero]
  rfl

/-- A sequence that starts at `g 0` and adds one tile's term at each step is the running sum, -/
theorem eq_partialSum (g : Fin 8 → M) (acc : ℕ → M) (h0 : acc 0 = g 0)
    (hs : ∀ (k : ℕ) (h : k + 1 < 8), acc (k + 1) = acc k + g ⟨k + 1, h⟩) :
    ∀ k : ℕ, k < 8 → acc k = partialSum g k
  | 0, _ => h0
  | k + 1, h => by rw [hs k h, partialSum_succ g k h, eq_partialSum g acc h0 hs k (by omega)]

/-- so its eighth value is the full sum; -/
theorem acc_seven (g : Fin 8 → M) (acc : ℕ → M) (h0 : acc 0 = g 0)
    (hs : ∀ (k : ℕ) (h : k + 1 < 8), acc (k + 1) = acc k + g ⟨k + 1, h⟩) : acc 7 = ∑ j : Fin 8, g j := by
  rw [eq_partialSum g acc h0 hs 7 (by omega), partialSum_seven]

/-- the same when the sequence starts from `z + g 0` with `z = 0`. -/
theorem acc_seven_of_zero (g : Fin 8 → M) (acc : ℕ → M) (z : M) (hz : z = 0) (h0 : acc 0 = z + g 0)
    (hs : ∀ (k : ℕ) (h : k + 1 < 8), acc (k + 1) = acc k + g ⟨k + 1, h⟩) : acc 7 = ∑ j : Fin 8, g j :=
  acc_seven g acc (by rw [h0, hz, zero_add]) hs

/-- A sum of `a + b` terms that vanish from position `a` on is the sum of the first `a`. -/
theorem sum_pad_add (a b : ℕ) (g : Fin (a + b) → M) (hz : ∀ k : Fin (a + b), a ≤ k.val → g k = 0) :
    ∑ k : Fin (a + b), g k = ∑ k : Fin a, g ⟨k.val, Nat.lt_add_right b k.isLt⟩ :=
  Fin.sum_trunc g fun j => hz _ (Nat.le_add_right a j.val)

/-- 896 terms that vanish from position 784 on. -/
theorem sum_pad (g : Fin 896 → M) (hz : ∀ k : Fin 896, 784 ≤ k.val → g k = 0) :
    ∑ k : Fin 896, g k = ∑ k : Fin 784, g ⟨k.val, by omega⟩ :=
  sum_pad_add 784 112 g hz

end Monoid

section ExtendedReals
variable {ι : Type*} [Fintype ι]

/-- A sum of products with zero on the left is zero. -/
theorem sum_zero_mul (f : ι → EReal) : ∑ k, 0 * f k = 0 := by simp only [zero_mul, Finset.sum_const_zero]
/-- A sum of products with zero on the right is zero. -/
theorem sum_mul_zero (f : ι → EReal) : ∑ k, f k * 0 = 0 := by simp only [mul_zero, Finset.sum_const_zero]

/-- A real minus itself is zero. -/
theorem sub_self_real (x : EReal) (hx : ∃ r : ℝ, x = (r : EReal)) : x - x = 0 := by
  obtain ⟨r, rfl⟩ := hx
  rw [← EReal.coe_sub, sub_self, EReal.coe_zero]

/-- `x * s + (x - x) * s = x * s` for a real `x`. -/
theorem mul_add_sub_self_mul (x s : EReal) (hx : ∃ r : ℝ, x = (r : EReal)) : x * s + (x - x) * s = x * s := by
  rw [sub_self_real x hx, zero_mul, add_zero]

/-- `x * w + x * (w - w) + (x - x) * w = x * w` for reals `x` and `w`. -/
theorem mul_add_mul_sub_self_add (x w : EReal) (hx : ∃ r : ℝ, x = (r : EReal)) (hw : ∃ r : ℝ, w = (r : EReal)) :
    x * w + x * (w - w) + (x - x) * w = x * w := by
  rw [sub_self_real x hx, sub_self_real w hw, zero_mul, mul_zero, add_zero, add_zero]

/-- The same under sums: `Σ a s + Σ (a - a) s = Σ a s` for real `a k`, -/
theorem sum_mul_add_sum_sub_self_mul (a s : ι → EReal) (ha : ∀ k, ∃ r : ℝ, a k = (r : EReal)) :
    ∑ k, a k * s k + ∑ k, (a k - a k) * s k = ∑ k, a k * s k := by
  simp only [fun k => sub_self_real (a k) (ha k), zero_mul, Finset.sum_const_zero, add_zero]

/-- and `Σ a w + Σ a (w - w) + Σ (a - a) w = Σ a w` for real `a k` and `w k`. -/
theorem sum_mul_add_sum_mul_sub_self_add (a w : ι → EReal) (ha : ∀ k, ∃ r : ℝ, a k = (r : EReal))
    (hw : ∀ k, ∃ r : ℝ, w k = (r : EReal)) :
    ∑ k, a k * w k + ∑ k, a k * (w k - w k) + ∑ k, (a k - a k) * w k = ∑ k, a k * w k := by
  simp only [fun k => sub_self_real (a k) (ha k), fun k => sub_self_real (w k) (hw k), zero_mul, mul_zero,
    Finset.sum_const_zero, add_zero]

end ExtendedReals

end Cert.LibTileSum
-- ==== Proof.GramTiles.lean ====
/-
  The Gram matrix of two 4096 x 4096 matrices, and its contraction cut into eight tiles of 512.

  `gram a b (r, c) = Σ_{k < 4096} a (r, k) * b (c, k)`: row `r` of `a` against row `c` of `b`.

  The output is tiled 2 x 4 into blocks of 2048 x 1024, and each block is accumulated over eight consecutive steps; step
  number `n` (of 64, the steps of one block consecutive, the blocks in row-major order) works on block row `n / 32`, block
  column `n / 8 % 4` and contraction tile `n % 8`.  `tileTerm a b n (p, q)` is what step `n` adds at place (p, q) of its
  block: the products over contraction tile `n % 8` of row `2048 * (n / 32) + p` of `a` with row `1024 * (n / 8 % 4) + q`
  of `b`.  The eight terms of the block holding entry (r, c), read at that entry's place in the block, add up to
  `gram a b (r, c)`: a sum of 4096 terms is the sum over eight tiles of the 512 terms of each.  Only associativity and
  commutativity of addition enter, so nothing is asked of the entries: they may be infinite.
-/
import Idealize.ShloMosaic.Lib.ValueIdx
import Mathlib.Data.EReal.Basic
import proofs.«140523_j58720792871620_2_alg».proof.Proof.LibTileSum

noncomputable section

namespace Cert.Gram

open Idealize.ShloMosaic Idealize.ShloMosaic.ValueIdx
open scoped BigOperators

/-- A 4096 x 4096 matrix of extended reals. -/
abbrev Mat : Type := (⟨2, ![4096, 4096]⟩ : Shape).Idx → EReal

/-- Row `r` of `a` against row `c` of `b`. -/
def gram (a b : Mat) : Mat := fun i => ∑ k : Fin 4096, a (ix2 (i 0) k) * b (ix2 (i 1) k)

/-- A matrix read at natural-number coordinates (zero outside; never read there). -/
def at2 (a : Mat) (r k : ℕ) : EReal := if h : r < 4096 ∧ k < 4096 then a (ix2 ⟨r, h.1⟩ ⟨k, h.2⟩) else 0

theorem at2_eq (a : Mat) (r k : ℕ) (hr : r < 4096) (hk : k < 4096) : at2 a r k = a (ix2 ⟨r, hr⟩ ⟨k, hk⟩) :=
  dif_pos ⟨hr, hk⟩

/-- What step `n` adds at place `y` of its 2048 x 1024 block. -/
def tileTerm (a b : Mat) (n : ℕ) (y : (⟨2, ![2048, 1024]⟩ : Shape).Idx) : EReal :=
  ∑ d : Fin 512, at2 a (2048 * (n / 32) + (y 0).val) (512 * (n % 8) + d.val)
    * at2 b (1024 * (n / 8 % 4) + (y 1).val) (512 * (n % 8) + d.val)

/-- The block (numbered in row-major order over the 2 x 4 blocks) that holds entry `i`. -/
abbrev blockOf (i : (⟨2, ![4096, 4096]⟩ : Shape).Idx) : ℕ := 4 * ((i 0).val / 2048) + (i 1).val / 1024

/-- The eight steps of the block holding entry `i` add, at `i`'s place `y` in the block, the whole contraction. -/
theorem sum_tileTerms (a b : Mat) (i : (⟨2, ![4096, 4096]⟩ : Shape).Idx) (y : (⟨2, ![2048, 1024]⟩ : Shape).Idx)
    (hy0 : (y 0).val = (i 0).val % 2048) (hy1 : (y 1).val = (i 1).val % 1024) :
    ∑ s ∈ Finset.range (7 + 1), tileTerm a b (8 * blockOf i + s) y = gram a b i := by
  have hi0 : (i 0).val < 4096 := (i 0).isLt
  have hi1 : (i 1).val < 4096 := (i 1).isLt
  unfold gram
  rw [Finset.sum_range, Cert.LibTileSum.sum_tiles_mul 8 512 (fun k : Fin (8 * 512) => a (ix2 (i 0) k) * b (ix2 (i 1) k))]
  refine Finset.sum_congr rfl fun j _ => ?_
  have hj : j.val < 8 := j.isLt
  unfold tileTerm
  refine Finset.sum_congr rfl fun d _ => ?_
  have hd : d.val < 512 := d.isLt
  have e0 : 2048 * ((8 * blockOf i + j.val) / 32) + (y 0).val = (i 0).val := by
    rw [hy0]; show 2048 * ((8 * (4 * ((i 0).val / 2048) + (i 1).val / 1024) + j.val) / 32) + (i 0).val % 2048 = _; omega
  have e1 : 1024 * ((8 * blockOf i + j.val) / 8 % 4) + (y 1).val = (i 1).val := by
    rw [hy1]; show 1024 * ((8 * (4 * ((i 0).val / 2048) + (i 1).val / 1024) + j.val) / 8 % 4) + (i 1).val % 1024 = _; omega
  have e2 : 512 * ((8 * blockOf i + j.val) % 8) + d.val = 512 * j.val + d.val := by
    show 512 * ((8 * (4 * ((i 0).val / 2048) + (i 1).val / 1024) + j.val) % 8) + d.val = _; omega
  rw [e0, e1, e2, at2_eq a _ _ hi0 (by omega), at2_eq b _ _ hi1 (by omega)]
  rfl

end Cert.Gram

end
-- ==== Proof.KernelGram.lean ====
/-
  The kernel leaves the Gram matrix in its output.

  The 64 grid steps come in eight-step runs, one run per 2048 x 1024 output block (the 2 x 4 blocks in row-major order).
  Step `t` fetches the 2048 x 512 tile of the first matrix at block (t / 32, t % 8) and the 1024 x 512 tile of the second at
  block (t / 8 % 4, t % 8); the first step of a run starts the output tile at zero, and every step adds to it the product
  of its two tiles contracted over their second axis.  So after the eighth step of a run the tile holds, at each place,
  zero plus the eight steps' terms, and those add up to the Gram matrix's entry there (the contraction over 4096 cut into
  eight tiles of 512).  The blocks tile the output, hence the whole output array is the Gram matrix of the two arguments.
-/
import proofs.«140523_j58720792871620_2_alg».proof.Proof.Gen.KernelIdeal.Value
import proofs.«140523_j58720792871620_2_alg».proof.Proof.TilePayload
import proofs.«140523_j58720792871620_2_alg».proof.Proof.GramTiles

noncomputable section

namespace Cert.KernelIdeal.KernelGram

open Cert.KernelIdeal Cert.KernelIdeal.Gen Cert.KernelIdeal.Value Idealize.ShloMosaic Idealize.ShloMosaic.TcCoe
  Idealize.SL.Sem Idealize.ShloMosaic.ValueIdx

variable (m : (ℓ : Loc nD τ sig) → Buf (Elt Ideal) ℓ)

/-- Which tiles a step fetches: of the first matrix the tile at block row `t / 32`, of the second the tile at block row
    `t / 8 % 4`, both at contraction tile `t % 8`. -/
theorem fetch_facts : ∀ t : Fin cfg0.N, win0_0.index t (0 : Fin 2) = t.val / 32 ∧ win0_0.index t (1 : Fin 2) = t.val % 8
    ∧ win0_1.index t (0 : Fin 2) = t.val / 8 % 4 ∧ win0_1.index t (1 : Fin 2) = t.val % 8 :=
  (by decide +kernel : ∀ t : Fin grid0.N, _)

/-- The first matrix's tile at step `t`, at (p, d): the matrix at row `2048 * (t / 32) + p`, column `512 * (t % 8) + d`. -/
theorem tileA_apply (c : Dev nD) (t : Fin cfg0.N) (p : Fin 2048) (d : Fin 512) :
    iblk m c 0 t (ix2 p d)
      = Cert.Gram.at2 (m ((c : Thread nD τ).loc main_arg0)) (2048 * (t.val / 32) + p.val) (512 * (t.val % 8) + d.val) := by
  obtain ⟨e0, e1, -, -⟩ := fetch_facts t
  have ht : t.val < 64 := lt_of_lt_of_eq t.isLt N_0
  rw [Cert.Gram.at2_eq _ _ _ (by omega) (by omega)]
  show V m c main_arg0 (((cfg0.win 0).blk t).view.emb (ix2 p d)) = V m c main_arg0 _
  refine congrArg _ (funext fun a => Fin.ext ?_)
  match a with
  | ⟨0, _⟩ => show win0_0.index t (0 : Fin 2) * 2048 + 1 * p.val = 2048 * (t.val / 32) + p.val; rw [e0]; omega
  | ⟨1, _⟩ => show win0_0.index t (1 : Fin 2) * 512 + 1 * d.val = 512 * (t.val % 8) + d.val; rw [e1]; omega

/-- The second matrix's tile at step `t`, at (q, d): the matrix at row `1024 * (t / 8 % 4) + q`, column `512 * (t % 8) + d`. -/
theorem tileB_apply (c : Dev nD) (t : Fin cfg0.N) (q : Fin 1024) (d : Fin 512) :
    iblk m c 1 t (ix2 q d)
      = Cert.Gram.at2 (m ((c : Thread nD τ).loc main_arg1)) (1024 * (t.val / 8 % 4) + q.val) (512 * (t.val % 8) + d.val) := by
  obtain ⟨-, -, e0, e1⟩ := fetch_facts t
  have ht : t.val < 64 := lt_of_lt_of_eq t.isLt N_0
  rw [Cert.Gram.at2_eq _ _ _ (by omega) (by omega)]
  show V m c main_arg1 (((cfg0.win 1).blk t).view.emb (ix2 q d)) = V m c main_arg1 _
  refine congrArg _ (funext fun a => Fin.ext ?_)
  match a with
  | ⟨0, _⟩ => show win0_1.index t (0 : Fin 2) * 1024 + 1 * q.val = 1024 * (t.val / 8 % 4) + q.val; rw [e0]; omega
  | ⟨1, _⟩ => show win0_1.index t (1 : Fin 2) * 512 + 1 * d.val = 512 * (t.val % 8) + d.val; rw [e1]; omega

/-- One step on the tiles it fetched: at each place of the output tile, what was there plus the step's term. -/
theorem step_at (c : Dev nD) (n : ℕ) (h : n < cfg0.N) (acc : Vec Ideal S2048x1024 .f32) (y : S2048x1024.Idx) :
    k0_pay2 (iblk m c 0 ⟨n, h⟩) (iblk m c 1 ⟨n, h⟩) acc y
      = acc y + Cert.Gram.tileTerm (m ((c : Thread nD τ).loc main_arg0)) (m ((c : Thread nD τ).loc main_arg1)) n y := by
  obtain ⟨p, q, rfl⟩ : ∃ (p : Fin 2048) (q : Fin 1024), y = ix2 p q := ⟨y 0, y 1, eq_ix2 y⟩
  refine (Tile.step_apply (iblk m c 0 ⟨n, h⟩) (iblk m c 1 ⟨n, h⟩) acc p q).trans ?_
  refine congrArg (acc (ix2 p q) + ·) (Finset.sum_congr rfl fun d _ => ?_)
  rw [tileA_apply m c ⟨n, h⟩ p d, tileB_apply m c ⟨n, h⟩ q d]

/-- The output tile after the eight steps `8 r … 8 r + 7` of a run: zero plus the eight steps' terms. -/
theorem fold_apply (c : Dev nD) (r : ℕ) (h : 8 * r + 7 < cfg0.N) (y : S2048x1024.Idx) :
    Pipeline.accAt (reset2 m c) (step2 m c) (8 * r) 7 h y
      = 0 + ∑ s ∈ Finset.range (7 + 1),
          Cert.Gram.tileTerm (m ((c : Thread nD τ).loc main_arg0)) (m ((c : Thread nD τ).loc main_arg1)) (8 * r + s) y :=
  Pipeline.accAt_add_apply (reset2 m c) (step2 m c) (fun _ => (0 : EReal))
    (Cert.Gram.tileTerm (m ((c : Thread nD τ).loc main_arg0)) (m ((c : Thread nD τ).loc main_arg1))) (8 * r) 7
    (fun hb y => (step_at m c (8 * r) hb (k0_pay1 (F := Ideal)) y).trans
      (congrArg (· + _) (Tile.zeroTile_apply y)))
    (fun n hn acc y _ _ => step_at m c n hn acc y) 7 le_rfl h y

/-- The output array after the run is the Gram matrix of the two arguments. -/
theorem G2_eq_gram (c : Dev nD) :
    G2 m c = Cert.Gram.gram (m ((c : Thread nD τ).loc main_arg0)) (m ((c : Thread nD τ).loc main_arg1)) := by
  funext i
  have hi0 : (i 0).val < 4096 := (i 0).isLt
  have hi1 : (i 1).val < 4096 := (i 1).isLt
  have hN : cfg0.N = 64 := N_0
  have hb : run2Of i = Cert.Gram.blockOf i := by
    show 4 * ((i 0).val / 2048 - 0) + 1 * ((i 1).val / 1024 - 0) = 4 * ((i 0).val / 2048) + (i 1).val / 1024
    omega
  have hlt : 8 * run2Of i + 7 < cfg0.N := by
    rw [hN, hb]; show 8 * (4 * ((i 0).val / 2048) + (i 1).val / 1024) + 7 < 64; omega
  unfold G2
  rw [dif_pos hlt, fold_apply m c (run2Of i) hlt (loc2Of i), zero_add, hb]
  exact Cert.Gram.sum_tileTerms _ _ i (loc2Of i) rfl rfl

end Cert.KernelIdeal.KernelGram

end
-- ==== Proof.RefGram.lean ====
/-
  The reference computes the Gram matrix: its one operation is a matrix product contracting the second axis of both
  arguments, which at entry (r, c) is `Σ_{k < 4096} a (r, k) * b (c, k)` on the extended reals.
-/
import proofs.«140523_j58720792871620_2_alg».proof.Proof.Gen.ReferenceIdeal.Read
import proofs.«140523_j58720792871620_2_alg».proof.Proof.GramTiles

noncomputable section

namespace Cert.ReferenceIdeal.RefGram

open Cert.ReferenceIdeal Cert.ReferenceIdeal.Gen Cert.ReferenceIdeal.Read Idealize.ShloMosaic Idealize.ShloMosaic.ValueIdx

/-- The first argument is read in the output's row, at the contracted position; -/
theorem lidx_eq (i : S4096x4096.Idx) (k : Fin 4096) : lidx_main_v0 i k = ix2 (i 0) k :=
  funext fun a => by match a with | ⟨0, _⟩ => rfl | ⟨1, _⟩ => rfl

/-- the second in the row the output's column names, at the contracted position. -/
theorem ridx_eq (i : S4096x4096.Idx) (k : Fin 4096) : ridx_main_v0 i k = ix2 (i 1) k :=
  funext fun a => by match a with | ⟨0, _⟩ => rfl | ⟨1, _⟩ => rfl

/-- The reference's product of its two arguments is their Gram matrix. -/
theorem dot_eq_gram (a b : (⟨S4096x4096, .f32⟩ : BufTy).Contents (Elt Ideal)) :
    val_main_v0 (F := Ideal) a b = Cert.Gram.gram a b := by
  funext i
  rw [val_main_v0_apply]
  simp only [lidx_eq, ridx_eq]
  rfl

end Cert.ReferenceIdeal.RefGram

end
-- ==== Proof.lean ====
/-
  The kernel and the reference compute the same Gram matrix, `out (r, c) = Σ_{k < 4096} a (r, k) * b (c, k)`, on the
  extended reals.

  The reference is one matrix product contracting the second axis of both arguments (RefGram).  The kernel tiles the
  output 2 x 4 into 2048 x 1024 blocks and the contraction into eight tiles of 512: each block is set to zero and then
  receives, over eight consecutive grid steps, the products of a 2048 x 512 tile of `a` with a 1024 x 512 tile of `b`
  (TilePayload: one step at an entry; KernelGram: which tiles a step holds, and the eight steps folded).  The eight
  partial sums add up to the whole contraction because a sum of 4096 terms is the sum over eight tiles of the 512 terms of
  each (GramTiles) — associativity and commutativity of addition only, so the entries may be any extended reals and the
  finiteness precondition is not used.  The narrowing of the tiles before the product is the identity on the extended
  reals, and no float literal other than zero occurs.  No operation was rewritten by the idealization, so that claim is
  trivial; the three frame claims are the generated frame of the kernel and the two runs with their results dropped.
-/
import proofs.«140523_j58720792871620_2_alg».proof.Defs
import proofs.«140523_j58720792871620_2_alg».proof.Proof.Gen.Kernel.Frame
import proofs.«140523_j58720792871620_2_alg».proof.Proof.Gen.KernelIdeal.Value
import proofs.«140523_j58720792871620_2_alg».proof.Proof.Gen.Pre_finite_inputs
import proofs.«140523_j58720792871620_2_alg».proof.Proof.Gen.ReferenceIdeal.Run
import proofs.«140523_j58720792871620_2_alg».proof.Proof.KernelGram
import proofs.«140523_j58720792871620_2_alg».proof.Proof.RefGram
import Idealize.ShloMosaic.Adequacy
import Idealize.ShloMosaic.Init

noncomputable section

namespace Cert.Proof

open Idealize.ShloMosaic Idealize.SL.Sem

/-- The idealized kernel runs and leaves its arguments unchanged: its value run with the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments unchanged: its run with the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the two arguments both programs end with the arguments' Gram matrix: the kernel's output
    array is the fold of its blocks' eight-step runs, which is the Gram matrix, and the reference's one product is the
    Gram matrix by definition of the product. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, (hagree c).1, (hagree c).2, Cert.KernelIdeal.KernelGram.G2_eq_gram]
  exact (Cert.ReferenceIdeal.Read.val_main_v0_eq _ _).trans (Cert.ReferenceIdeal.RefGram.dot_eq_gram _ _)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
